-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4x9 : Shape := ⟨3, ![524288, 4, 9]⟩
abbrev S3x8 : Shape := ⟨2, ![3, 8]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩

class Facts : Prop where
  bcast_S_S524288x4x9 : S_.BroadcastsInDim S524288x4x9 (![] : Fin 0 → Fin S524288x4x9.rank)
  reducesTo_S524288x4x9_S_d0_1_2 : S524288x4x9.ReducesTo [0, 1, 2] S_
  h_S_ : 0 < S_.numel
  bcast_S_S3x8 : S_.BroadcastsInDim S3x8 (![] : Fin 0 → Fin S3x8.rank)
  reducesTo_S3x8_S_d0_1 : S3x8.ReducesTo [0, 1] S_
  bcast_S_S3x1 : S_.BroadcastsInDim S3x1 (![] : Fin 0 → Fin S3x1.rank)
  reducesTo_S3x1_S_d0_1 : S3x1.ReducesTo [0, 1] S_
  bcast_S_S3 : S_.BroadcastsInDim S3 (![] : Fin 0 → Fin S3.rank)
  reducesTo_S3_S_d0 : S3.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3 .f32) (main_arg5 : FVec F S1x1 .f32) (main_arg6 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S524288x4x9 .f32) (main_arg1 : FVec F S3x8 .f32) (main_arg2 : FVec F S3x1 .f32) (main_arg3 : FVec F S3 .f32) (main_arg4 : FVec F S3 .f32) (main_arg5 : FVec F S1x1 .f32) (main_arg6 : FVec F S1 .f32) : IVec S_ 1 :=
  let main_v0 : FVec F S524288x4x9 .f32 := Host.absf main_arg0
  let main_cst : FVec F S_ .f32 := constant S_ .f32 0x7F800000#32
  let main_v1 : FVec F S524288x4x9 .f32 := broadcastInDim S524288x4x9 ![] bcast_S_S524288x4x9 main_cst
  let main_v2 : IVec S524288x4x9 1 := cmpf .olt main_v0 main_v1
  let main_c : IVec S_ 1 := constantI S_ 1 1#1
  let main_v3 : IVec S_ 1 := (fun x v => Host.reduce IntOp.andi x v reducesTo_S524288x4x9_S_d0_1_2 h_S_) main_v2 main_c
  let main_v4 : FVec F S3x8 .f32 := Host.absf main_arg1
  let main_cst_0 : FVec F S_ .f32 := constant S_ .f32 0x7F800000#32
  let main_v5 : FVec F S3x8 .f32 := broadcastInDim S3x8 ![] bcast_S_S3x8 main_cst_0
  let main_v6 : IVec S3x8 1 := cmpf .olt main_v4 main_v5
  let main_c_1 : IVec S_ 1 := constantI S_ 1 1#1
  let main_v7 : IVec S_ 1 := (fun x v => Host.reduce IntOp.andi x v reducesTo_S3x8_S_d0_1 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_v13 main_v16
-- ==== Kernel.lean ====
abbrev S524288x4x9 : Shape := ⟨3, ![524288, 4, 9]⟩
abbrev S3x8 : Shape := ⟨2, ![3, 8]⟩
abbrev S3x1 : Shape := ⟨2, ![3, 1]⟩
abbrev S3 : Shape := ⟨1, ![3]⟩
abbrev S1x1 : Shape := ⟨2, ![1, 1]⟩
abbrev S1 : Shape := ⟨1, ![1]⟩
abbrev S2097152x9 : Shape := ⟨2, ![2097152, 9]⟩
abbrev S2097152x1 : Shape := ⟨2, ![2097152, 1]⟩
abbrev S131072x9 : Shape := ⟨2, ![131072, 9]⟩
abbrev S131072x1 : Shape := ⟨2, ![131072, 1]⟩
abbrev S131072x8 : Shape := ⟨2, ![131072, 8]⟩
abbrev S8x3 : Shape := ⟨2, ![8, 3]⟩
abbrev S131072x3 : Shape := ⟨2, ![131072, 3]⟩
abbrev S1x3 : Shape := ⟨2, ![1, 3]⟩
abbrev S524288x4x1 : Shape := ⟨3, ![524288, 4, 1]⟩

abbrev nBuf : Space → Nat
  | .hbm => 10
  | .vmem => 10
  | .smem => 0
  | _ => 0

abbrev bufTy : (tb : Table) → Fin (tcTables nBuf tb) → BufTy
  | .hbm, ⟨0, _⟩ => ⟨S524288x4x9, .f32⟩
  | .hbm, ⟨1, _⟩ => ⟨S3x8, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S2097152x9, .f32⟩
  | .hbm, ⟨8, _⟩ => ⟨S2097152x1, .f32⟩
  | .hbm, ⟨9, _⟩ => ⟨S524288x4x1, .f32⟩
  | .local _ .vmem, ⟨0, _⟩ => ⟨S131072x9, .f32⟩
  | .local _ .vmem, ⟨1, _⟩ => ⟨S131072x9, .f32⟩
  | .local _ .vmem, ⟨2, _⟩ => ⟨S3x8, .f32⟩
  | .local _ .vmem, ⟨3, _⟩ => ⟨S3x1, .f32⟩
  | .local _ .vmem, ⟨4, _⟩ => ⟨S3, .f32⟩
  | .local _ .vmem, ⟨5, _⟩ => ⟨S3, .f32⟩
  | .local _ .vmem, ⟨6, _⟩ => ⟨S1x1, .f32⟩
  | .local _ .vmem, ⟨7, _⟩ => ⟨S1, .f32⟩
  | .local _ .vmem, ⟨8, _⟩ => ⟨S131072x1, .f32⟩
  | .local _ .vmem, ⟨9, _⟩ => ⟨S131072x1, .f32⟩
  | _, _ => ⟨S524288x4x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S131072x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S131072x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S524288x4x9_S2097152x9 : S524288x4x9.ShapeCasts S2097152x9
  inb_S131072x9_S131072x9_0_0 : ∀ a, (![0, 0] : Fin 2 → Nat) a + S131072x9.size a ≤ S131072x9.size a
  h_S131072x9 : 0 < S131072x9.numel
  shapeCasts_S131072x9_S131072x9 : S131072x9.ShapeCasts S131072x9
  slices_S131072x9_o0_0_S131072x1 : S131072x9.Slices ![0, 0] S131072x1
  slices_S131072x9_o0_1_S131072x8 : S131072x9.Slices ![0, 1] S131072x8
  inb_S3x8_S3x8_0_0 : ∀ a, (![0, 0] : Fin 2 → Nat) a + S3x8.size a ≤ S3x8.size a
  h_S3x8 : 0 < S3x8.numel
  inb_S3x1_S3x1_0_0 : ∀ a, (![0, 0] : Fin 2 → Nat) a + S3x1.size a ≤ S3x1.size a
  h_S3x1 : 0 < S3x1.numel
  inb_S3_S3_0 : ∀ a, (![0] : Fin 1 → Nat) a + S3.size a ≤ S3.size a
  h_S3 : 0 < S3.numel
  inb_S1x1_S1x1_0_0 : ∀ a, (![0, 0] : Fin 2 → Nat) a + S1x1.size a ≤ S1x1.size a
  h_S1x1 : 0 < S1x1.numel
  inb_S1_S1_0 : ∀ a, (![0] : Fin 1 → Nat) a + S1.size a ≤ S1.size a
  h_S1 : 0 < S1.numel
  transposes_S3x8_p1_0_S8x3 : S3x8.Transposes [1, 0] S8x3
  shapeCasts_S3_S1x3 : S3.ShapeCasts S1x3
  broadcasts_S1x3_S131072x3 : S1x3.Broadcasts S131072x3
  transposes_S3x1_p1_0_S1x3 : S3x1.Transposes [1, 0] S1x3
  slices_S131072x3_o0_0_S131072x1 : S131072x3.Slices ![0, 0] S131072x1
  slices_S131072x3_o0_1_S131072x1 : S131072x3.Slices ![0, 1] S131072x1
  slices_S131072x3_o0_2_S131072x1 : S131072x3.Slices ![0, 2] S131072x1
  inpos_S1x1_p0_0 : ∀ a, (![0, 0] : Fin 2 → Nat) a < S1x1.size a
  inpos_S1_p0 : ∀ a, (![0] : Fin 1 → Nat) a < S1.size a
  inb_S131072x1_S131072x1_0_0 : ∀ a, (![0, 0] : Fin 2 → Nat) a + S131072x1.size a ≤ S131072x1.size a
  h_S131072x1 : 0 < S131072x1.numel
  shapeCasts_S2097152x1_S524288x4x1 : S2097152x1.ShapeCasts S524288x4x1
  dot_S131072x8_S8x3_S131072x3_1_0_0_1_n_n_wf : DotDims.WF S131072x8 S8x3 S131072x3 [1] [0] [0] [1] [] []
  dot_S131072x1_S1x3_S131072x3_1_0_0_1_n_n_wf : DotDims.WF S131072x1 S1x3 S131072x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x9.size a ≤ S2097152x9.size a
  hwx0_0 : ∀ i : grid0.Coords, EltTy.bits .f32 = 32 ∨ (Rect.block (s := S2097152x9) S131072x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8.size a ≤ S3x8.size a
  hwx0_1 : ∀ i : grid0.Coords, EltTy.bits .f32 = 32 ∨ (Rect.block (s := S3x8) S3x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S131072x1.size a ≤ S2097152x1.size a
  hwx0_7 : ∀ i : grid0.Coords, EltTy.bits .f32 = 32 ∨ (Rect.block (s := S2097152x1) S131072x1.size (cc0_transform_7 i) (hinb0_7 i)).WholeWords (EltTy.packing .f32)

variable [Facts₀]

def dot_S131072x8_S8x3_S131072x3_1_0_0_1_n_n : DotDims S131072x8 S8x3 S131072x3 where
  lhsContracting := [1]
  rhsContracting := [0]
  lhsNonContracting := [0]
  rhsNonContracting := [1]
  lhsBatch := []
  rhsBatch := []
  wf := dot_S131072x8_S8x3_S131072x3_1_0_0_1_n_n_wf
def dot_S131072x1_S1x3_S131072x3_1_0_0_1_n_n : DotDims S131072x1 S1x3 S131072x3 where
  lhsContracting := [1]
  rhsContracting := [0]
  lhsNonContracting := [0]
  rhsNonContracting := [1]
  lhsBatch := []
  rhsBatch := []
  wf := dot_S131072x1_S1x3_S131072x3_1_0_0_1_n_n_wf

abbrev win0_0 : Pipeline.Window sig grid0 :=
  Pipeline.Window.ofSpec (Memref.whole main_v0) S131072x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S131072x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x4x9 : Shape := ⟨3, ![524288, 4, 9]⟩
abbrev S3x8 : Shape := ⟨2, ![3, 8]⟩
abbrev S3x1 : Shape := ⟨2, ![3, 1]⟩
abbrev S3 : Shape := ⟨1, ![3]⟩
abbrev S1x1 : Shape := ⟨2, ![1, 1]⟩
abbrev S1 : Shape := ⟨1, ![1]⟩
abbrev S2097152x9 : Shape := ⟨2, ![2097152, 9]⟩
abbrev S2097152x1 : Shape := ⟨2, ![2097152, 1]⟩
abbrev S2097152x8 : Shape := ⟨2, ![2097152, 8]⟩
abbrev S8x3 : Shape := ⟨2, ![8, 3]⟩
abbrev S2097152x3 : Shape := ⟨2, ![2097152, 3]⟩
abbrev S1x3 : Shape := ⟨2, ![1, 3]⟩
abbrev S_ : Shape := ⟨0, ![]⟩
abbrev S524288x4x1 : Shape := ⟨3, ![524288, 4, 1]⟩

abbrev nBuf : Space → Nat
  | .hbm => 60
  | .vmem => 0
  | .smem => 0
  | _ => 0

abbrev bufTy : (tb : Table) → Fin (tcTables nBuf tb) → BufTy
  | .hbm, ⟨0, _⟩ => ⟨S524288x4x9, .f32⟩
  | .hbm, ⟨1, _⟩ => ⟨S3x8, .f32⟩
  | .hbm, ⟨2, _⟩ => ⟨S3x1, .f32⟩
  | .hbm, ⟨3, _⟩ => ⟨S3, .f32⟩
  | .hbm, ⟨4, _⟩ => ⟨S3, .f32⟩
  | .hbm, ⟨5, _⟩ => ⟨S1x1, .f32⟩
  | .hbm, ⟨6, _⟩ => ⟨S1, .f32⟩
  | .hbm, ⟨7, _⟩ => ⟨S2097152x9, .f32⟩
  | .hbm, ⟨8, _⟩ => ⟨S2097152x1, .f32⟩
  | .hbm, ⟨9, _⟩ => ⟨S2097152x8, .f32⟩
  | .hbm, ⟨10, _⟩ => ⟨S8x3, .f32⟩
  | .hbm, ⟨11, _⟩ => ⟨S2097152x3, .f32⟩
  | .hbm, ⟨12, _⟩ => ⟨S1x3, .f32⟩
  | .hbm, ⟨13, _⟩ => ⟨S2097152x3, .f32⟩
  | .hbm, ⟨14, _⟩ => ⟨S2097152x3, .f32⟩
  | .hbm, ⟨15, _⟩ => ⟨S1x3, .f32⟩
  | .hbm, ⟨16, _⟩ => ⟨S2097152x3, .f32⟩
  | .hbm, ⟨17, _⟩ => ⟨S1x3, .f32⟩
  | .hbm, ⟨18, _⟩ => ⟨S2097152x3, .f32⟩
  | .hbm, ⟨19, _⟩ => ⟨S2097152x3, .f32⟩
  | .hbm, ⟨20, _⟩ => ⟨S2097152x1, .f32⟩
  | .hbm, ⟨21, _⟩ => ⟨S2097152x1, .f32⟩
  | .hbm, ⟨22, _⟩ => ⟨S2097152x1, .f32⟩
  | .hbm, ⟨23, _⟩ => ⟨S2097152x1, .f32⟩
  | .hbm, ⟨24, _⟩ => ⟨S2097152x1, .f32⟩
  | .hbm, ⟨25, _⟩ => ⟨S_, .f32⟩
  | .hbm, ⟨26, _⟩ => ⟨S2097152x1, .f32⟩
  | .hbm, ⟨27, _⟩ => ⟨S2097152x1, .f32⟩
  | .hbm, ⟨28, _⟩ => ⟨S_, .f32⟩
  | .hbm, ⟨29, _⟩ => ⟨S2097152x1, .f32⟩
  | .hbm, ⟨30, _⟩ => ⟨S2097152x1, .f32⟩
  | .hbm, ⟨31, _⟩ => ⟨S2097152x1, .f32⟩
  | .hbm, ⟨32, _⟩ => ⟨S2097152x1, .f32⟩
  | .hbm, ⟨33, _⟩ => ⟨S2097152x1, .f32⟩
  | .hbm, ⟨34, _⟩ => ⟨S2097152x1, .f32⟩
  | .hbm, ⟨35, _⟩ => ⟨S2097152x1, .f32⟩
  | .hbm, ⟨36, _⟩ => ⟨S_, .f32⟩
  | .hbm, ⟨37, _⟩ => ⟨S2097152x1, .f32⟩
  | .hbm, ⟨38, _⟩ => ⟨S2097152x1, .f32⟩
  | .hbm, ⟨39, _⟩ => ⟨S_, .f32⟩
  | .hbm, ⟨40, _⟩ => ⟨S2097152x1, .f32⟩
  | .hbm, ⟨41, _⟩ => ⟨S2097152x1, .f32⟩
  | .hbm, ⟨42, _⟩ => ⟨S2097152x1, .f32⟩
  | .hbm, ⟨43, _⟩ => ⟨S2097152x1, .f32⟩
  | .hbm, ⟨44, _⟩ => ⟨S2097152x1, .f32⟩
  | .hbm, ⟨45, _⟩ => ⟨S2097152x1, .f32⟩
  | .hbm, ⟨46, _⟩ => ⟨S2097152x1, .f32⟩
  | .hbm, ⟨47, _⟩ => ⟨S_, .f32⟩
  | .hbm, ⟨48, _⟩ => ⟨S2097152x1, .f32⟩
  | .hbm, ⟨49, _⟩ => ⟨S2097152x1, .f32⟩
  | .hbm, ⟨50, _⟩ => ⟨S2097152x1, .f32⟩
  | .hbm, ⟨51, _⟩ => ⟨S2097152x1, .f32⟩
  | .hbm, ⟨52, _⟩ => ⟨S2097152x1, .f32⟩
  | .hbm, ⟨53, _⟩ => ⟨S_, .f32⟩
  | .hbm, ⟨54, _⟩ => ⟨S2097152x1, .f32⟩
  | .hbm, ⟨55, _⟩ => ⟨S2097152x1, .f32⟩
  | .hbm, ⟨56, _⟩ => ⟨S_, .f32⟩
  | .hbm, ⟨57, _⟩ => ⟨S2097152x1, .f32⟩
  | .hbm, ⟨58, _⟩ => ⟨S2097152x1, .f32⟩
  | .hbm, ⟨59, _⟩ => ⟨S524288x4x1, .f32⟩
  | _, _ => ⟨S524288x4x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  shapeCasts_S524288x4x9_S2097152x9 : S524288x4x9.ShapeCasts S2097152x9
  slices_S2097152x9_S2097152x1_0_0 : S2097152x9.Slices ![0, 0] S2097152x1
  slices_S2097152x9_S2097152x8_0_1 : S2097152x9.Slices ![0, 1] S2097152x8
  transposes_S3x8_S8x3_1_0 : S3x8.Transposes [1, 0] S8x3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  transposes_S3x1_S1x3_1_0 : S3x1.Transposes [1, 0] S1x3
  slices_S2097152x3_S2097152x1_0_0 : S2097152x3.Slices ![0, 0] S2097152x1
  bcast_S_S2097152x1 : S_.BroadcastsInDim S2097152x1 (![] : Fin 0 → Fin S2097152x1.rank)
  slices_S2097152x3_S2097152x1_0_1 : S2097152x3.Slices ![0, 1] S2097152x1
  slices_S2097152x3_S2097152x1_0_2 : S2097152x3.Slices ![0, 2] S2097152x1
  shapeCasts_S1x1_S_ : S1x1.ShapeCasts S_
  shapeCasts_S1_S_ : S1.ShapeCasts S_
  shapeCasts_S2097152x1_S524288x4x1 : S2097152x1.ShapeCasts S524288x4x1
  dot_S2097152x8_S8x3_S2097152x3_1_0_0_1_n_n_wf : DotDims.WF S2097152x8 S8x3 S2097152x3 [1] [0] [0] [1] [] []
  dot_S2097152x1_S1x3_S2097152x3_1_0_0_1_n_n_wf : DotDims.WF S2097152x1 S1x3 S2097152x3 [1] [0] [0] [1] [] []

variable [Facts₀]

def dot_S2097152x8_S8x3_S2097152x3_1_0_0_1_n_n : DotDims S2097152x8 S8x3 S2097152x3 where
  lhsContracting := [1]
  rhsContracting := [0]
  lhsNonContracting := [0]
  rhsNonContracting := [1]
  lhsBatch := []
  rhsBatch := []
  wf := dot_S2097152x8_S8x3_S2097152x3_1_0_0_1_n_n_wf
def dot_S2097152x1_S1x3_S2097152x3_1_0_0_1_n_n : DotDims S2097152x1 S1x3 S2097152x3 where
  lhsContracting := [1]
  rhsContracting := [0]
  lhsNonContracting := [0]
  rhsNonContracting := [1]
  lhsBatch := []
  rhsBatch := []
  wf := dot_S2097152x1_S1x3_S2097152x3_1_0_0_1_n_n_wf

class Facts : Prop extends Facts₀ where

variable [Facts]
-- ==== Proof.GruCell.lean ====
/-
  One row of the computation, over the extended reals.

  A row is nine numbers: the hidden state `h = x 0` and eight inputs `x 1 … x 8`. One step of a gated recurrent
  unit of hidden width one forms, for each of the three gates `g`, an input side
  `Σₖ x (1 + k) · w_ih g k + b_ih g` (a sum of eight products) and a hidden side `Σₖ h · w_hh g k + b_hh g` (a sum of
  ONE product, kept as a sum because that is how a one-column matrix product reads); then

    r = σ (in 0 + hid 0),   z = σ (in 1 + hid 1),   n = tanh (in 2 + r · hid 2),   h' = (1 − z) · n + z · h,

  and the result is the affine image `h' · w_out + b_out`. Here `σ s = 1 / (1 + e^(−s))` is the logistic function
  in the form the extended reals give it (`⊥ ↦ 0`, `⊤ ↦ 1`), so a program that applies the logistic function and one
  that spells the quotient out compute the same value at every extended real: no finiteness is needed anywhere below.
-/
import Idealize.ShloMosaic.PureOps.Ideal
import Idealize.ShloMosaic.Lib.ValueIdx
import Idealize.ShloMosaic.Lib.IdealHost

noncomputable section

namespace Cert.GruCell

open Idealize.ShloMosaic Idealize.ShloMosaic.ValueIdx
open scoped BigOperators

/-- Two indices of a matrix with the same row and column numbers are the same index. -/
theorem idx2_ext {n0 n1 : ℕ} {a b : (⟨2, ![n0, n1]⟩ : Shape).Idx} (h0 : (a 0).val = (b 0).val)
    (h1 : (a 1).val = (b 1).val) : a = b :=
  funext fun d => match d with
    | ⟨0, _⟩ => Fin.ext h0
    | ⟨1, _⟩ => Fin.ext h1

/-- Two indices of a vector with the same position are the same index. -/
theorem idx1_ext {n : ℕ} {a b : (⟨1, ![n]⟩ : Shape).Idx} (h0 : (a 0).val = (b 0).val) : a = b :=
  funext fun d => match d with
    | ⟨0, _⟩ => Fin.ext h0

variable (x : Fin 9 → EReal)
  (wih : (⟨2, ![3, 8]⟩ : Shape).Idx → EReal) (whh : (⟨2, ![3, 1]⟩ : Shape).Idx → EReal)
  (bih bhh : (⟨1, ![3]⟩ : Shape).Idx → EReal)
  (wout : (⟨2, ![1, 1]⟩ : Shape).Idx → EReal) (bout : (⟨1, ![1]⟩ : Shape).Idx → EReal)

/-- The input side of gate `g`: the eight inputs against row `g` of the input weights, plus the gate's bias. -/
def inGate (g : Fin 3) : EReal :=
  (∑ k : Fin 8, x ⟨1 + k.val, by have := k.isLt; omega⟩ * wih (ix2 g k)) + bih (ix1 g)

/-- The hidden side of gate `g`: the hidden state against row `g` of the hidden weights (one column, so a sum of
    one product), plus the gate's bias. -/
def hidGate (g : Fin 3) : EReal :=
  (∑ k : Fin 1, x ⟨k.val, by have := k.isLt; omega⟩ * whh (ix2 g k)) + bhh (ix1 g)

/-- The reset gate. -/
def reset : EReal := Ideal.logistic (inGate x wih bih 0 + hidGate x whh bhh 0)

/-- The update gate. -/
def update : EReal := Ideal.logistic (inGate x wih bih 1 + hidGate x whh bhh 1)

/-- The candidate state. -/
def candidate : EReal := Ideal.tanh (inGate x wih bih 2 + reset x wih whh bih bhh * hidGate x whh bhh 2)

/-- The row's result: the new hidden state `(1 − z) · n + z · h`, scaled and shifted. -/
def cell : EReal :=
  ((1 - update x wih whh bih bhh) * candidate x wih whh bih bhh + update x wih whh bih bhh * x 0) * wout (ix2 0 0)
    + bout (ix1 0)

/-- All rows at once: entry `(j, 0)` of the result is the one-row function of row `j` of a 2097152-row input. -/
def rows (X : (⟨2, ![2097152, 9]⟩ : Shape).Idx → EReal) : (⟨2, ![2097152, 1]⟩ : Shape).Idx → EReal :=
  fun i => cell (fun c => X (ix2 (⟨(i 0).val, (i 0).isLt⟩ : Fin 2097152) c)) wih whh bih bhh wout bout

omit x in
/-- The one-row function depends only on the row and the parameters it is given. -/
theorem cell_congr {x x' : Fin 9 → EReal} {wih wih' : (⟨2, ![3, 8]⟩ : Shape).Idx → EReal}
    {whh whh' : (⟨2, ![3, 1]⟩ : Shape).Idx → EReal} {bih bih' bhh bhh' : (⟨1, ![3]⟩ : Shape).Idx → EReal}
    {wout wout' : (⟨2, ![1, 1]⟩ : Shape).Idx → EReal} {bout bout' : (⟨1, ![1]⟩ : Shape).Idx → EReal}
    (hx : x = x') (h1 : wih = wih') (h2 : whh = whh') (h3 : bih = bih') (h4 : bhh = bhh') (h5 : wout = wout')
    (h6 : bout = bout') : cell x wih whh bih bhh wout bout = cell x' wih' whh' bih' bhh' wout' bout' := by
  subst hx h1 h2 h3 h4 h5 h6; rfl

/-- The logistic function spelt as a quotient, with the number one written as the single-precision word of `1.0`,
    is the logistic function: the word denotes one, and the quotient is the function's definition. -/
theorem logistic_of_quotient (s : EReal) :
    Ideal.div (Ideal.ofBits .f32 0x3F800000#32) (Ideal.ofBits .f32 0x3F800000#32 + Ideal.exp (-s)) = Ideal.logistic s := by
  rw [Ideal.ofBits_one_f32]; rfl

end Cert.GruCell

end
-- ==== Proof.ReferenceRows.lean ====
/-
  The reference, row by row.

  The reference flattens its input to 2097152 rows of nine numbers and applies the gated-recurrent-unit step and the
  affine map to all rows at once: two matrix products (inputs against the transposed input weights, hidden state
  against the transposed hidden weights), a bias row added to each, the gates cut out as columns, the logistic function
  spelt as the quotient `1 / (1 + e^(−s))`. Read at row `j`, every one of these operations looks only at row `j` of the
  flattened input, so the value at `(j, 0)` is the one-row function `GruCell.cell` of that row.
-/
import proofs.«109916_j11596411699631_1_alg».proof.Proof.Gen.ReferenceIdeal.Read
import proofs.«109916_j11596411699631_1_alg».proof.Proof.GruCell
import Idealize.ShloMosaic.Lib.IdealHost

noncomputable section

namespace Cert.ReferenceRows

open Cert.ReferenceIdeal Cert.ReferenceIdeal.Gen Cert.ReferenceIdeal.Read Cert.GruCell
open Idealize.ShloMosaic Idealize.ShloMosaic.TcCoe Idealize.ShloMosaic.ValueIdx Idealize.SL.Sem
open scoped BigOperators

variable (X0 : (⟨S524288x4x9, .f32⟩ : BufTy).Contents (Elt Ideal))
  (x1 : (⟨S3x8, .f32⟩ : BufTy).Contents (Elt Ideal)) (x2 : (⟨S3x1, .f32⟩ : BufTy).Contents (Elt Ideal))
  (x3 x4 : (⟨S3, .f32⟩ : BufTy).Contents (Elt Ideal))
  (x5 : (⟨S1x1, .f32⟩ : BufTy).Contents (Elt Ideal)) (x6 : (⟨S1, .f32⟩ : BufTy).Contents (Elt Ideal))

/-- Row `j` of the flattened input. -/
def row (j : Fin 2097152) : Fin 9 → EReal := fun c => val_main_v0 (F := Ideal) X0 (ix2 j c)

/-- Column `g` of the input-side product plus bias, at row `j`: the input side of gate `g` on row `j`. The product's
    entry is the sum over the eight contracted positions of input `1 + k` of the row times entry `(g, k)` of the
    weights (the transposition read back), and the bias row spread over all rows reads its entry `g`. -/
theorem inSide (j : Fin 2097152) (g : Fin 3) (I : S2097152x3.Idx) (h0 : (I 0).val = j.val) (h1 : (I 1).val = g.val) :
    val_main_v7 (F := Ideal) X0 x1 x3 I = inGate (row X0 j) x1 x3 g := by
  obtain rfl : I = ix2 j g := idx2_ext h0 h1
  rw [val_main_v7_apply, val_main_v4_apply, val_main_v6_apply, val_main_v5_apply]
  simp only [val_main_v2_apply, val_main_v3_apply, Ideal.addf_def]
  unfold inGate row
  refine congrArg₂ (· + ·) (Finset.sum_congr rfl fun k _ => ?_) (congrArg x3 (idx1_ext rfl))
  exact congrArg₂ (· * ·) (congrArg _ (idx2_ext rfl rfl)) (congrArg x1 (idx2_ext rfl rfl))

/-- Column `g` of the hidden-side product plus bias, at row `j`: the hidden side of gate `g` on row `j`. -/
theorem hidSide (j : Fin 2097152) (g : Fin 3) (I : S2097152x3.Idx) (h0 : (I 0).val = j.val) (h1 : (I 1).val = g.val) :
    val_main_v12 (F := Ideal) X0 x2 x4 I = hidGate (row X0 j) x2 x4 g := by
  obtain rfl : I = ix2 j g := idx2_ext h0 h1
  rw [val_main_v12_apply, val_main_v9_apply, val_main_v11_apply, val_main_v10_apply]
  simp only [val_main_v1_apply, val_main_v8_apply, Ideal.addf_def]
  unfold hidGate row
  refine congrArg₂ (· + ·) (Finset.sum_congr rfl fun k _ => ?_) (congrArg x4 (idx1_ext rfl))
  exact congrArg₂ (· * ·) (congrArg _ (idx2_ext rfl rfl)) (congrArg x2 (idx2_ext rfl rfl))

/-- A one-by-one matrix has one index. -/
theorem idx11_eq (a b : (⟨2, ![1, 1]⟩ : Shape).Idx) : a = b :=
  idx2_ext (by have ha : (a 0).val < 1 := (a 0).isLt; have hb : (b 0).val < 1 := (b 0).isLt; omega)
    (by have ha : (a 1).val < 1 := (a 1).isLt; have hb : (b 1).val < 1 := (b 1).isLt; omega)

/-- A vector of length one has one index. -/
theorem idx1_eq (a b : (⟨1, ![1]⟩ : Shape).Idx) : a = b :=
  idx1_ext (by have ha : (a 0).val < 1 := (a 0).isLt; have hb : (b 0).val < 1 := (b 0).isLt; omega)

/-- The hidden state the reference multiplies the update gate by: column 0 of the flattened input at row `j`. -/
theorem hiddenAt (j : Fin 2097152) : val_main_v1 (F := Ideal) X0 (ix2 j (0 : Fin 1)) = row X0 j 0 := by
  rw [val_main_v1_apply]
  exact congrArg _ (idx2_ext rfl rfl)

/-- The output weight, reshaped to a scalar and spread over all rows, reads its one entry. -/
theorem woutAt (i : S2097152x1.Idx) : val_main_v42 (F := Ideal) x5 i = x5 (ix2 0 0) := by
  rw [val_main_v42_apply]
  unfold val_main_v41 shapeCast
  exact congrArg x5 (idx11_eq _ _)

/-- The output bias, reshaped to a scalar and spread over all rows, reads its one entry. -/
theorem boutAt (i : S2097152x1.Idx) : val_main_v45 (F := Ideal) x6 i = x6 (ix1 0) := by
  rw [val_main_v45_apply]
  unfold val_main_v44 shapeCast
  exact congrArg x6 (idx1_eq _ _)

/-- THE REFERENCE AT ROW `j`: entry `(j, 0)` of the flat result is the one-row function of row `j` of the flattened
    input. The gates are the three columns of the two products; the reference's quotients `1 / (1 + e^(−s))` are the
    logistic function, the word of `1.0` being the number one. -/
theorem result_row (j : Fin 2097152) :
    val_main_v46 (F := Ideal) X0 x1 x2 x3 x4 x5 x6 (ix2 j (0 : Fin 1)) = cell (row X0 j) x1 x2 x3 x4 x5 x6 := by
  rw [val_main_v46_apply, val_main_v43_apply, val_main_v40_apply, val_main_v38_apply, val_main_v39_apply,
    val_main_v37_apply, val_main_v35_apply, val_main_v34_apply, val_main_v33_apply, val_main_v30_apply,
    val_main_v28_apply, val_main_v26_apply, val_main_v25_apply, val_main_v24_apply, val_main_v21_apply,
    val_main_v19_apply, val_main_v17_apply, val_main_v16_apply, val_main_v15_apply,
    val_main_v13_apply, val_main_v14_apply, val_main_v22_apply, val_main_v23_apply, val_main_v31_apply,
    val_main_v32_apply, val_main_v18_apply, val_main_v20_apply, val_main_v27_apply, val_main_v29_apply,
    val_main_v36_apply, val_main_cst_apply, val_main_cst_0_apply, val_main_cst_1_apply, val_main_cst_2_apply,
    val_main_cst_3_apply, woutAt, boutAt, hiddenAt,
    inSide X0 x1 x3 j 0 (idx_main_v13 (ix2 j (0 : Fin 1))) rfl rfl,
    inSide X0 x1 x3 j 1 (idx_main_v22 (ix2 j (0 : Fin 1))) rfl rfl,
    inSide X0 x1 x3 j 2 (idx_main_v31 (ix2 j (0 : Fin 1))) rfl rfl,
    hidSide X0 x2 x4 j 0 (idx_main_v14 (ix2 j (0 : Fin 1))) rfl rfl,
    hidSide X0 x2 x4 j 1 (idx_main_v23 (ix2 j (0 : Fin 1))) rfl rfl,
    hidSide X0 x2 x4 j 2 (idx_main_v32 (ix2 j (0 : Fin 1))) rfl rfl]
  simp only [Ideal.addf_def, Ideal.mulf_def, Ideal.subf_def, Ideal.hostDivf_def, Ideal.hostUnary_exp_def,
    Ideal.hostNegf_def, Ideal.negf_def, Ideal.hostUnary_tanh_def, Ideal.ofBits_def, logistic_of_quotient,
    Ideal.ofBits_one_f32]
  rfl

/-- All rows: the flat result is the all-rows function of the flattened input. -/
theorem flat_eq : val_main_v46 (F := Ideal) X0 x1 x2 x3 x4 x5 x6 = rows x1 x2 x3 x4 x5 x6 (val_main_v0 (F := Ideal) X0) := by
  funext i
  obtain ⟨j, q, rfl⟩ : ∃ (j : Fin 2097152) (q : Fin 1), i = ix2 j q := ⟨i 0, i 1, eq_ix2 i⟩
  obtain rfl : q = 0 := Subsingleton.elim _ _
  exact result_row X0 x1 x2 x3 x4 x5 x6 j

/-- THE REFERENCE'S RESULT: the reshape to three axes of the all-rows function of the input reshaped to 2097152 rows
    of nine — the two reshapes carried as they are. -/
theorem result_eq (m : (ℓ : Loc nD τ sig) → Buf (Elt Ideal) ℓ) (c : Dev nD) :
    Cert.ReferenceIdeal.Value.res_main_v47 (F := Ideal) m c
      = shapeCast _ (rows (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
          (shapeCast _ (m ((c.tc : Thread nD τ).loc main_arg0)) shapeCasts_S524288x4x9_S2097152x9))
        shapeCasts_S2097152x1_S524288x4x1 := by
  rw [val_main_v47_eq]
  unfold val_main_v47
  rw [flat_eq]
  rfl

end Cert.ReferenceRows

end
-- ==== Proof.KernelRows.lean ====
/-
  The kernel's block, row by row.

  At a grid point the kernel holds a block of 131072 rows of nine numbers and the six parameter arrays, and computes
  for all rows of the block at once: the hidden state is column 0, the inputs are columns 1 to 8; two matrix products
  into a zero accumulator (inputs against the transposed input weights, hidden column against the transposed hidden
  weights), a bias row spread over the rows and added to each, the three gates cut out as columns, the logistic
  function and the hyperbolic tangent applied entry by entry, the output weight and bias read as scalars and spread.
  Read at row `p` of the block, every operation looks only at row `p`, so entry `(p, 0)` of what the body stores is
  the one-row function `GruCell.cell` of row `p` of the block.
-/
import proofs.«109916_j11596411699631_1_alg».proof.Proof.Gen.KernelIdeal.Skeleton
import proofs.«109916_j11596411699631_1_alg».proof.Proof.GruCell
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelRows

open Cert.KernelIdeal Cert.KernelIdeal.Gen Cert.GruCell
open Idealize.ShloMosaic Idealize.ShloMosaic.ValueIdx
open scoped BigOperators

/-! ## The two matrix products at an entry -/

theorem inDot_lhs0 (i : S131072x3.Idx) (q : dot_S131072x8_S8x3_S131072x3_1_0_0_1_n_n.contr.Idx) :
    (dot_S131072x8_S8x3_S131072x3_1_0_0_1_n_n.lhsIdx i q 0).val = (i 0).val := by
  unfold DotDims.lhsIdx
  rw [dif_neg (show ¬(0 : Fin S131072x8.rank) ∈ dot_S131072x8_S8x3_S131072x3_1_0_0_1_n_n.lhsBatch by decide), dif_pos (show (0 : Fin S131072x8.rank) ∈ dot_S131072x8_S8x3_S131072x3_1_0_0_1_n_n.lhsNonContracting by decide)]
  rfl
theorem inDot_rhs1 (i : S131072x3.Idx) (q : dot_S131072x8_S8x3_S131072x3_1_0_0_1_n_n.contr.Idx) :
    (dot_S131072x8_S8x3_S131072x3_1_0_0_1_n_n.rhsIdx i q 1).val = (i 1).val := by
  unfold DotDims.rhsIdx
  rw [dif_neg (show ¬(1 : Fin S8x3.rank) ∈ dot_S131072x8_S8x3_S131072x3_1_0_0_1_n_n.rhsBatch by decide), dif_pos (show (1 : Fin S8x3.rank) ∈ dot_S131072x8_S8x3_S131072x3_1_0_0_1_n_n.rhsNonContracting by decide)]
  rfl

/-- Entry `(p, g)` of the product of a [131072, 8] matrix with an [8, 3] matrix into a zero accumulator is the sum over
    the eight contracted positions of entry `(p, k)` times entry `(k, g)`. -/
theorem inDot_apply (y0 : FVec Ideal S131072x8 .f32) (y1 : FVec Ideal S8x3 .f32) (p : Fin 131072) (g : Fin 3) :
    matmul dot_S131072x8_S8x3_S131072x3_1_0_0_1_n_n none y0 y1 (constant (F := Ideal) S131072x3 .f32 0x00000000#32) (ix2 p g)
      = ∑ k : Fin 8, y0 (ix2 p k) * y1 (ix2 k g) := by
  simp only [matmul]
  rw [Ideal.matmul_constant_zero_apply, ← Equiv.sum_comp (ValueIdx.contrEquiv1 dot_S131072x8_S8x3_S131072x3_1_0_0_1_n_n 8 rfl rfl).symm]
  refine Finset.sum_congr rfl fun k _ => ?_
  have hk := ValueIdx.contrEquiv1_symm_val dot_S131072x8_S8x3_S131072x3_1_0_0_1_n_n 8 rfl rfl k
  have el : dot_S131072x8_S8x3_S131072x3_1_0_0_1_n_n.lhsIdx (ix2 p g) ((ValueIdx.contrEquiv1 dot_S131072x8_S8x3_S131072x3_1_0_0_1_n_n 8 rfl rfl).symm k) = ix2 p k :=
    idx2_ext (inDot_lhs0 _ _) ((dot_S131072x8_S8x3_S131072x3_1_0_0_1_n_n.lhsIdx_val_of_single rfl _ _).trans hk)
  have er : dot_S131072x8_S8x3_S131072x3_1_0_0_1_n_n.rhsIdx (ix2 p g) ((ValueIdx.contrEquiv1 dot_S131072x8_S8x3_S131072x3_1_0_0_1_n_n 8 rfl rfl).symm k) = ix2 k g :=
    idx2_ext ((dot_S131072x8_S8x3_S131072x3_1_0_0_1_n_n.rhsIdx_val_of_single rfl _ _).trans hk) (inDot_rhs1 _ _)
  rw [el, er]

theorem hidDot_lhs0 (i : S131072x3.Idx) (q : dot_S131072x1_S1x3_S131072x3_1_0_0_1_n_n.contr.Idx) :
    (dot_S131072x1_S1x3_S131072x3_1_0_0_1_n_n.lhsIdx i q 0).val = (i 0).val := by
  unfold DotDims.lhsIdx
  rw [dif_neg (show ¬(0 : Fin S131072x1.rank) ∈ dot_S131072x1_S1x3_S131072x3_1_0_0_1_n_n.lhsBatch by decide), dif_pos (show (0 : Fin S131072x1.rank) ∈ dot_S131072x1_S1x3_S131072x3_1_0_0_1_n_n.lhsNonContracting by decide)]
  rfl
theorem hidDot_rhs1 (i : S131072x3.Idx) (q : dot_S131072x1_S1x3_S131072x3_1_0_0_1_n_n.contr.Idx) :
    (dot_S131072x1_S1x3_S131072x3_1_0_0_1_n_n.rhsIdx i q 1).val = (i 1).val := by
  unfold DotDims.rhsIdx
  rw [dif_neg (show ¬(1 : Fin S1x3.rank) ∈ dot_S131072x1_S1x3_S131072x3_1_0_0_1_n_n.rhsBatch by decide), dif_pos (show (1 : Fin S1x3.rank) ∈ dot_S131072x1_S1x3_S131072x3_1_0_0_1_n_n.rhsNonContracting by decide)]
  rfl

/-- Entry `(p, g)` of the product of a [131072, 1] column with a [1, 3] row into a zero accumulator is the sum over
    the one contracted position of entry `(p, k)` times entry `(k, g)`. -/
theorem hidDot_apply (y0 : FVec Ideal S131072x1 .f32) (y1 : FVec Ideal S1x3 .f32) (p : Fin 131072) (g : Fin 3) :
    matmul dot_S131072x1_S1x3_S131072x3_1_0_0_1_n_n none y0 y1 (constant (F := Ideal) S131072x3 .f32 0x00000000#32) (ix2 p g)
      = ∑ k : Fin 1, y0 (ix2 p k) * y1 (ix2 k g) := by
  simp only [matmul]
  rw [Ideal.matmul_constant_zero_apply, ← Equiv.sum_comp (ValueIdx.contrEquiv1 dot_S131072x1_S1x3_S131072x3_1_0_0_1_n_n 1 rfl rfl).symm]
  refine Finset.sum_congr rfl fun k _ => ?_
  have hk := ValueIdx.contrEquiv1_symm_val dot_S131072x1_S1x3_S131072x3_1_0_0_1_n_n 1 rfl rfl k
  have el : dot_S131072x1_S1x3_S131072x3_1_0_0_1_n_n.lhsIdx (ix2 p g) ((ValueIdx.contrEquiv1 dot_S131072x1_S1x3_S131072x3_1_0_0_1_n_n 1 rfl rfl).symm k) = ix2 p k :=
    idx2_ext (hidDot_lhs0 _ _) ((dot_S131072x1_S1x3_S131072x3_1_0_0_1_n_n.lhsIdx_val_of_single rfl _ _).trans hk)
  have er : dot_S131072x1_S1x3_S131072x3_1_0_0_1_n_n.rhsIdx (ix2 p g) ((ValueIdx.contrEquiv1 dot_S131072x1_S1x3_S131072x3_1_0_0_1_n_n 1 rfl rfl).symm k) = ix2 k g :=
    idx2_ext ((dot_S131072x1_S1x3_S131072x3_1_0_0_1_n_n.rhsIdx_val_of_single rfl _ _).trans hk) (hidDot_rhs1 _ _)
  rw [el, er]

/-! ## The body's values, named -/

variable (x0 : FVec Ideal S131072x9 .f32) (x1 : FVec Ideal S3x8 .f32) (x2 : FVec Ideal S3x1 .f32)
  (x3 x4 : FVec Ideal S3 .f32) (x5 : FVec Ideal S1x1 .f32) (x6 : FVec Ideal S1 .f32)

/-- Row `p` of the block. -/
def row (p : Fin 131072) : Fin 9 → EReal := fun c => x0 (ix2 p c)

/-- The hidden column of the block: column 0. -/
def hiddenCol : FVec Ideal S131072x1 .f32 :=
  extractStridedSlice S131072x1 ![0, 0] (shapeCast S131072x9 x0 shapeCasts_S131072x9_S131072x9) slices_S131072x9_o0_0_S131072x1

/-- The input columns of the block: columns 1 to 8. -/
def inputCols : FVec Ideal S131072x8 .f32 :=
  extractStridedSlice S131072x8 ![0, 1] (shapeCast S131072x9 x0 shapeCasts_S131072x9_S131072x9) slices_S131072x9_o0_1_S131072x8

/-- The input sides of the three gates, for all rows: inputs times transposed input weights, plus the bias row. -/
def inSides : FVec Ideal S131072x3 .f32 :=
  addf (matmul dot_S131072x8_S8x3_S131072x3_1_0_0_1_n_n none (inputCols x0) (transpose S8x3 [1, 0] x1 transposes_S3x8_p1_0_S8x3)
      (constant (F := Ideal) S131072x3 .f32 0x00000000#32))
    (broadcastTo S131072x3 (shapeCast S1x3 x3 shapeCasts_S3_S1x3) broadcasts_S1x3_S131072x3)

/-- The hidden sides of the three gates, for all rows: hidden column times transposed hidden weights, plus the bias row. -/
def hidSides : FVec Ideal S131072x3 .f32 :=
  addf (matmul dot_S131072x1_S1x3_S131072x3_1_0_0_1_n_n none (hiddenCol x0) (transpose S1x3 [1, 0] x2 transposes_S3x1_p1_0_S1x3)
      (constant (F := Ideal) S131072x3 .f32 0x00000000#32))
    (broadcastTo S131072x3 (shapeCast S1x3 x4 shapeCasts_S3_S1x3) broadcasts_S1x3_S131072x3)

/-- The reset gates of all rows. -/
def resets : FVec Ideal S131072x1 .f32 :=
  logistic (addf (extractStridedSlice S131072x1 ![0, 0] (inSides x0 x1 x3) slices_S131072x3_o0_0_S131072x1)
    (extractStridedSlice S131072x1 ![0, 0] (hidSides x0 x2 x4) slices_S131072x3_o0_0_S131072x1))

/-- The update gates of all rows. -/
def updates : FVec Ideal S131072x1 .f32 :=
  logistic (addf (extractStridedSlice S131072x1 ![0, 1] (inSides x0 x1 x3) slices_S131072x3_o0_1_S131072x1)
    (extractStridedSlice S131072x1 ![0, 1] (hidSides x0 x2 x4) slices_S131072x3_o0_1_S131072x1))

/-- The candidate states of all rows. -/
def candidates : FVec Ideal S131072x1 .f32 :=
  tanh (addf (extractStridedSlice S131072x1 ![0, 2] (inSides x0 x1 x3) slices_S131072x3_o0_2_S131072x1)
    (mulf (resets x0 x1 x2 x3 x4) (extractStridedSlice S131072x1 ![0, 2] (hidSides x0 x2 x4) slices_S131072x3_o0_2_S131072x1)))

/-- What the body stores: the new hidden states, scaled by the output weight and shifted by the output bias. -/
def blockResult : FVec Ideal S131072x1 .f32 :=
  addf (mulf (addf (mulf (subf (broadcast S131072x1 (Scalar.ofBits (F := Ideal) .f32 0x3F800000#32)) (updates x0 x1 x2 x3 x4))
          (candidates x0 x1 x2 x3 x4)) (mulf (updates x0 x1 x2 x3 x4) (hiddenCol x0)))
      (broadcast S131072x1 (extractAt ![0, 0] x5 inpos_S1x1_p0_0)))
    (broadcast S131072x1 (extractAt ![0] x6 inpos_S1_p0))

/-- The body's one stored value is that tree of operations of its loaded blocks. -/
theorem payload_eq : k0_pay1 (F := Ideal) x0 x1 x2 x3 x4 x5 x6 = blockResult x0 x1 x2 x3 x4 x5 x6 := rfl

/-! ## Each named value at a row -/

/-- The hidden column at row `p` is entry 0 of the row. -/
theorem hiddenCol_apply (p : Fin 131072) (k : Fin 1) : hiddenCol x0 (ix2 p k) = row x0 p ⟨k.val, by have := k.isLt; omega⟩ := by
  unfold hiddenCol row
  rw [shapeCast_self]
  exact extractStridedSlice_apply ![0, 0] x0 slices_S131072x9_o0_0_S131072x1 _ _ fun a => match a with
    | ⟨0, _⟩ => by show p.val = 0 + p.val; omega
    | ⟨1, _⟩ => by show k.val = 0 + k.val; omega

/-- The input columns at row `p`, position `k`, are entry `1 + k` of the row. -/
theorem inputCols_apply (p : Fin 131072) (k : Fin 8) : inputCols x0 (ix2 p k) = row x0 p ⟨1 + k.val, by have := k.isLt; omega⟩ := by
  unfold inputCols row
  rw [shapeCast_self]
  exact extractStridedSlice_apply ![0, 1] x0 slices_S131072x9_o0_1_S131072x8 _ _ fun a => match a with
    | ⟨0, _⟩ => by show p.val = 0 + p.val; omega
    | ⟨1, _⟩ => by show 1 + k.val = 1 + k.val; rfl

/-- The input sides at `(p, g)`: the input side of gate `g` on row `p`. -/
theorem inSides_apply (p : Fin 131072) (g : Fin 3) : inSides x0 x1 x3 (ix2 p g) = inGate (row x0 p) x1 x3 g := by
  unfold inSides inGate
  rw [addf_apply, inDot_apply]
  refine congrArg₂ (· + ·) (Finset.sum_congr rfl fun k _ => ?_)
    ((broadcastTo_1b_ab_apply _ broadcasts_S1x3_S131072x3 p g).trans (shapeCast_a_1a_apply x3 shapeCasts_S3_S1x3 0 g))
  rw [inputCols_apply]
  exact congrArg _ (transpose_ix2_apply x1 transposes_S3x8_p1_0_S8x3 k g)

/-- The hidden sides at `(p, g)`: the hidden side of gate `g` on row `p`. -/
theorem hidSides_apply (p : Fin 131072) (g : Fin 3) : hidSides x0 x2 x4 (ix2 p g) = hidGate (row x0 p) x2 x4 g := by
  unfold hidSides hidGate
  rw [addf_apply, hidDot_apply]
  refine congrArg₂ (· + ·) (Finset.sum_congr rfl fun k _ => ?_)
    ((broadcastTo_1b_ab_apply _ broadcasts_S1x3_S131072x3 p g).trans (shapeCast_a_1a_apply x4 shapeCasts_S3_S1x3 0 g))
  rw [hiddenCol_apply]
  exact congrArg _ (transpose_ix2_apply x2 transposes_S3x1_p1_0_S1x3 k g)

/-- Column `g` of a three-column array, as a one-column array, at row `p`. -/
theorem gateCol_apply (y : FVec Ideal S131072x3 .f32) (o : ℕ) (h : S131072x3.Slices ![0, o] S131072x1) (p : Fin 131072)
    (g : Fin 3) (hg : g.val = o) : extractStridedSlice S131072x1 ![0, o] y h (ix2 p (0 : Fin 1)) = y (ix2 p g) :=
  extractStridedSlice_apply ![0, o] y h _ _ fun a => match a with
    | ⟨0, _⟩ => by show p.val = 0 + p.val; omega
    | ⟨1, _⟩ => by show g.val = o + 0; omega

theorem resets_apply (p : Fin 131072) : resets x0 x1 x2 x3 x4 (ix2 p (0 : Fin 1)) = reset (row x0 p) x1 x2 x3 x4 := by
  unfold resets reset
  show Ideal.logistic (_ + _) = _
  rw [gateCol_apply _ 0 _ p 0 rfl, gateCol_apply _ 0 _ p 0 rfl, inSides_apply, hidSides_apply]

theorem updates_apply (p : Fin 131072) : updates x0 x1 x2 x3 x4 (ix2 p (0 : Fin 1)) = update (row x0 p) x1 x2 x3 x4 := by
  unfold updates update
  show Ideal.logistic (_ + _) = _
  rw [gateCol_apply _ 1 _ p 1 rfl, gateCol_apply _ 1 _ p 1 rfl, inSides_apply, hidSides_apply]

theorem candidates_apply (p : Fin 131072) :
    candidates x0 x1 x2 x3 x4 (ix2 p (0 : Fin 1)) = candidate (row x0 p) x1 x2 x3 x4 := by
  unfold candidates candidate
  show Ideal.tanh (_ + _ * _) = _
  rw [gateCol_apply _ 2 _ p 2 rfl, gateCol_apply _ 2 _ p 2 rfl, inSides_apply, hidSides_apply, resets_apply]

/-- THE BLOCK AT ROW `p`: entry `(p, 0)` of what the body stores is the one-row function of row `p` of the block. The
    word of `1.0` is the number one; the scalars read off the one-entry parameter arrays are their entries. -/
theorem payload_row (p : Fin 131072) :
    k0_pay1 (F := Ideal) x0 x1 x2 x3 x4 x5 x6 (ix2 p (0 : Fin 1)) = cell (row x0 p) x1 x2 x3 x4 x5 x6 := by
  rw [payload_eq]
  unfold blockResult cell
  show ((Ideal.ofBits .f32 0x3F800000#32 - updates x0 x1 x2 x3 x4 (ix2 p 0)) * candidates x0 x1 x2 x3 x4 (ix2 p 0)
      + updates x0 x1 x2 x3 x4 (ix2 p 0) * hiddenCol x0 (ix2 p 0)) * extractAt ![0, 0] x5 inpos_S1x1_p0_0
      + extractAt ![0] x6 inpos_S1_p0 = _
  rw [updates_apply, candidates_apply, hiddenCol_apply, Ideal.ofBits_one_f32]
  unfold extractAt
  exact congrArg₂ (· + ·) (congrArg₂ (· * ·) rfl (congrArg x5 (idx2_ext rfl rfl))) (congrArg x6 (idx1_ext rfl))

end Cert.KernelRows

end
-- ==== Proof.KernelArray.lean ====
/-
  From blocks to the array, and the reshapes around the region.

  The flattened input has 2097152 rows; grid point `t` of sixteen takes rows `131072 · t … 131072 · t + 131071` as
  its block, takes each parameter array whole, and writes back the matching 131072 entries of the one-column result.
  Since the body's entry `(p, 0)` is the one-row function of row `p` of its block (KernelRows), what point `t` writes
  back is its block of ONE whole-array function — row `j` of the result is the one-row function of row `j` of the
  flattened input —, and the sixteen blocks tile the result: row `j` lies in the block of point `j / 131072`. Before the
  region the program flattens the input by a reshape, and after it reshapes the one-column result to three axes; both
  are carried as they are, never opened.
-/
import proofs.«109916_j11596411699631_1_alg».proof.Proof.Gen.KernelIdeal.Frame
import proofs.«109916_j11596411699631_1_alg».proof.Proof.KernelRows
import Idealize.ShloMosaic.Lib.Pipeline.Value
import Idealize.ShloMosaic.Lib.StableHlo.Run

set_option maxRecDepth 16384

noncomputable section

namespace Cert.KernelArray

open Cert.KernelIdeal Cert.KernelIdeal.Gen Cert.GruCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the sixteen points: the input's block and the result's block are block `t`
    of their arrays along the rows and the only block along the columns; every parameter array is its only block. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## The blocks the body is given -/

/-- Row `p` of the input's block at point `t` is row `131072 · t + p` of the flattened input. -/
theorem inputBlock_row (c : Dev nD) (t : Fin cfg0.N) (p : Fin 131072) (j : Fin 2097152) (hj : j.val = t.val * 131072 + p.val) :
    KernelRows.row (iblk m c 0 t) p = fun cc => V m c main_v0 (ix2 j cc) := by
  obtain ⟨e0, e1, -⟩ := idx_facts t
  funext cc
  unfold KernelRows.row
  show V m c main_v0 (((cfg0.win 0).blk t).view.emb (ix2 p cc)) = V m c main_v0 (ix2 j cc)
  refine congrArg _ (idx2_ext ?_ ?_)
  · show win0_0.index t (0 : Fin 2) * 131072 + 1 * p.val = j.val; omega
  · show win0_0.index t (1 : Fin 2) * 9 + 1 * cc.val = cc.val; omega

/-- Each parameter array's block at any point is the whole array. -/
theorem block1 (c : Dev nD) (t : Fin cfg0.N) : (iblk m c 1 t : S3x8.Idx → EReal) = V m c main_arg1 := by
  obtain ⟨-, -, -, -, e0, e1, -⟩ := idx_facts t
  funext y
  show V m c main_arg1 (((cfg0.win 1).blk t).view.emb y) = V m c main_arg1 y
  refine congrArg _ (idx2_ext ?_ ?_)
  · show win0_1.index t (0 : Fin 2) * 3 + 1 * (y 0).val = (y 0).val; omega
  · show win0_1.index t (1 : Fin 2) * 8 + 1 * (y 1).val = (y 1).val; omega
theorem block2 (c : Dev nD) (t : Fin cfg0.N) : (iblk m c 2 t : S3x1.Idx → EReal) = V m c main_arg2 := by
  obtain ⟨-, -, -, -, -, -, e0, e1, -⟩ := idx_facts t
  funext y
  show V m c main_arg2 (((cfg0.win 2).blk t).view.emb y) = V m c main_arg2 y
  refine congrArg _ (idx2_ext ?_ ?_)
  · show win0_2.index t (0 : Fin 2) * 3 + 1 * (y 0).val = (y 0).val; omega
  · show win0_2.index t (1 : Fin 2) * 1 + 1 * (y 1).val = (y 1).val; omega
theorem block3 (c : Dev nD) (t : Fin cfg0.N) : (iblk m c 3 t : S3.Idx → EReal) = V m c main_arg3 := by
  obtain ⟨-, -, -, -, -, -, -, -, e0, -⟩ := idx_facts t
  funext y
  show V m c main_arg3 (((cfg0.win 3).blk t).view.emb y) = V m c main_arg3 y
  refine congrArg _ (idx1_ext ?_)
  show win0_3.index t (0 : Fin 1) * 3 + 1 * (y 0).val = (y 0).val; omega
theorem block4 (c : Dev nD) (t : Fin cfg0.N) : (iblk m c 4 t : S3.Idx → EReal) = V m c main_arg4 := by
  obtain ⟨-, -, -, -, -, -, -, -, -, e0, -⟩ := idx_facts t
  funext y
  show V m c main_arg4 (((cfg0.win 4).blk t).view.emb y) = V m c main_arg4 y
  refine congrArg _ (idx1_ext ?_)
  show win0_4.index t (0 : Fin 1) * 3 + 1 * (y 0).val = (y 0).val; omega
theorem block5 (c : Dev nD) (t : Fin cfg0.N) : (iblk m c 5 t : S1x1.Idx → EReal) = V m c main_arg5 := by
  obtain ⟨-, -, -, -, -, -, -, -, -, -, e0, e1, -⟩ := idx_facts t
  funext y
  show V m c main_arg5 (((cfg0.win 5).blk t).view.emb y) = V m c main_arg5 y
  refine congrArg _ (idx2_ext ?_ ?_)
  · show win0_5.index t (0 : Fin 2) * 1 + 1 * (y 0).val = (y 0).val; omega
  · show win0_5.index t (1 : Fin 2) * 1 + 1 * (y 1).val = (y 1).val; omega
theorem block6 (c : Dev nD) (t : Fin cfg0.N) : (iblk m c 6 t : S1.Idx → EReal) = V m c main_arg6 := by
  obtain ⟨-, -, -, -, -, -, -, -, -, -, -, -, e0⟩ := idx_facts t
  funext y
  show V m c main_arg6 (((cfg0.win 6).blk t).view.emb y) = V m c main_arg6 y
  refine congrArg _ (idx1_ext ?_)
  show win0_6.index t (0 : Fin 1) * 1 + 1 * (y 0).val = (y 0).val; omega

/-! ## What a point writes back, and the array after the run -/

/-- The one-column result as one function of the arrays the region finds. -/
abbrev regionResult (c : Dev nD) : S2097152x1.Idx → EReal :=
  rows (V m c main_arg1) (V m c main_arg2) (V m c main_arg3) (V m c main_arg4) (V m c main_arg5) (V m c main_arg6) (V m c main_v0)

/-- WHAT POINT `t` WRITES BACK is block `t` of that function. -/
theorem flushed_eq (c : Dev nD) (t : Fin cfg0.N) :
    (dats m 0 c).flushed 7 t = ((cfg0.win 7).blk t).view.read (Elt Ideal) (regionResult m c) := by
  show (cfg0.win 7).cut (grid0.coords t) ((dats m 0 c).after 7 t) = _
  rw [after0_7]
  unfold out0_7
  rw [View.canon_unit_zero hz2]
  simp only [View.ld_unit_zero (S := S131072x9) hz2, View.ld_unit_zero (S := S3x8) hz2, View.ld_unit_zero (S := S3x1) hz2,
    View.ld_unit_zero (S := S3) hz1, View.ld_unit_zero (S := S1x1) hz2, View.ld_unit_zero (S := S1) hz1]
  obtain ⟨-, -, e0, e1, -⟩ := idx_facts t
  funext y
  obtain ⟨p, q, rfl⟩ : ∃ (p : Fin 131072) (q : Fin 1), y = ix2 p q := ⟨y 0, y 1, eq_ix2 y⟩
  obtain rfl : q = 0 := Subsingleton.elim _ _
  show k0_pay1 (F := Ideal) (iblk m c 0 t) (iblk m c 1 t) (iblk m c 2 t) (iblk m c 3 t) (iblk m c 4 t) (iblk m c 5 t) (iblk m c 6 t) (ix2 p 0)
    = regionResult m c (((cfg0.win 7).blk t).view.emb (ix2 p 0))
  refine (KernelRows.payload_row (iblk m c 0 t) (iblk m c 1 t) (iblk m c 2 t) (iblk m c 3 t) (iblk m c 4 t) (iblk m c 5 t) (iblk m c 6 t) p).trans ?_
  unfold regionResult rows
  refine cell_congr (inputBlock_row m c t p _ ?_) (block1 m c t) (block2 m c t) (block3 m c t) (block4 m c t) (block5 m c t) (block6 m c t)
  show win0_7.index t (0 : Fin 2) * 131072 + 1 * p.val = t.val * 131072 + p.val
  omega

/-- An index of the result is in point `t`'s block iff each coordinate is in the block's range on its axis. -/
theorem mem_blk (t : Fin cfg0.N) (i : S2097152x1.Idx) :
    i ∈ ((cfg0.win 7).blk t).view.set ↔ ∀ a : Fin 2, win0_7.index t a * S131072x1.size a ≤ (i a).val ∧ (i a).val < win0_7.index t a * S131072x1.size a + S131072x1.size a := by
  show i ∈ ((View.whole main_v1).slice (win0_7.rect t)).set ↔ _
  rw [View.set_slice_whole, Rect.mem_set_unit]
  exact Iff.rfl

/-- THE BLOCKS TILE THE RESULT: row `j` is in the block of point `j / 131072`. -/
theorem cover (i : S2097152x1.Idx) : ∃ t : Fin cfg0.N, (cfg0.win 7).flush t = true ∧ i ∈ ((cfg0.win 7).blk t).view.set := by
  have hi0 : (i 0).val < 2097152 := (i 0).isLt
  have hi1 : (i 1).val < 1 := (i 1).isLt
  have hN : cfg0.N = 16 := N_0
  refine ⟨⟨(i 0).val / 131072, by rw [hN]; omega⟩, flush0_7 _, ?_⟩
  rw [mem_blk]
  obtain ⟨-, -, e0, e1, -⟩ := idx_facts ⟨(i 0).val / 131072, by rw [hN]; omega⟩
  intro a
  match a with
  | ⟨0, _⟩ =>
    show win0_7.index _ (0 : Fin 2) * 131072 ≤ (i 0).val ∧ (i 0).val < win0_7.index _ (0 : Fin 2) * 131072 + 131072
    rw [e0]; show (i 0).val / 131072 * 131072 ≤ (i 0).val ∧ (i 0).val < (i 0).val / 131072 * 131072 + 131072; omega
  | ⟨1, _⟩ =>
    show win0_7.index _ (1 : Fin 2) * 1 ≤ (i 1).val ∧ (i 1).val < win0_7.index _ (1 : Fin 2) * 1 + 1
    rw [e1]; omega

/-- THE RESULT ARRAY after the region is that function of the arrays the region finds. -/
theorem final (c : Dev nD) : (dats m 0 c).arrAt 7 cfg0.N = regionResult m c :=
  (dats m 0 c).arrAt_eq_of_cover 7 (regionResult m c) (fun t _ => flushed_eq m c t) cover

/-! ## The reshapes around the region, and the run -/

/-- The region finds the flattened input: the input reshaped to 2097152 rows of nine. -/
theorem entry_flat (c : Dev nD) :
    (V m c main_v0 : S2097152x9.Idx → EReal)
      = shapeCast _ (m ((c.tc : Thread nD τ).loc main_arg0)) shapeCasts_S524288x4x9_S2097152x9 := by
  show StableHlo.after hostOps0 (fun b => m (c, b)) (Proc.devRef .tc main_v0) = _
  after_results; rfl

/-- The one-column result as one function of the program's arguments. -/
abbrev flatResult (c : Dev nD) : S2097152x1.Idx → EReal :=
  rows (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (shapeCast _ (m ((c.tc : Thread nD τ).loc main_arg0)) shapeCasts_S524288x4x9_S2097152x9)

/-- No host operation before the region writes a parameter array, and the flattened input is the reshaped input: the
    function of the arrays the region finds is the function of the arguments. -/
theorem regionResult_eq (c : Dev nD) : regionResult m c = flatResult m c := by
  unfold regionResult flatResult
  rw [entry_flat m c]
  exact congr (congr (congr (congr (congr (congr (congrArg rows (V_main_arg1 m c)) (V_main_arg2 m c)) (V_main_arg3 m c))
    (V_main_arg4 m c)) (V_main_arg5 m c)) (V_main_arg6 m c)) rfl

/-- The program's result: the reshape after the region applied to the result array. -/
theorem result_eq (c : Dev nD) :
    Pipeline.afterTail₀ cfgs (dats m) 0 (V0 m) [hostOps1] c main_v2
      = shapeCast _ (flatResult m c) shapeCasts_S2097152x1_S524288x4x1 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = flatResult m c :=
    (Pipeline.withArrays_arr spec0 launch0.win.arr_inj c _ _ 7).trans ((final m c).trans (regionResult_eq m c))
  rw [e]
  rfl

/-- THE KERNEL'S RUN, READ: every weakly fair execution terminates with the result at the reshape of the one-column
    function of the arguments, and the arguments unchanged. -/
theorem run : θ_run defs (onTc (τ := τ) (main (F := Ideal))) ⟨m, fun _ => 0, ρ⟩ fun r => ∀ c : Dev nD,
      r.2.mem ((c.tc : Thread nD τ).loc main_v2) = shapeCast _ (flatResult m c) shapeCasts_S2097152x1_S524288x4x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelArray

end
-- ==== Proof.lean ====
/-
  The certificate: a gated-recurrent-unit step of hidden width one followed by an affine map, applied to every one
  of 2097152 rows of nine numbers, computed by a kernel sixteen blocks of 131072 rows at a time and by a reference
  over all rows at once.

  Over the extended reals the two programs are one function of the arguments. Both flatten the input by the same
  reshape and reshape the one-column result back by the same reshape; in between, row `j` of the result is in both
  the one-row function `GruCell.cell` of row `j` of the flattened input: the kernel's matrix products into a zero
  accumulator and the reference's products are the same sums, a bias row spread over the rows reads the same entry
  however it is spread, the kernel's logistic function is by definition the quotient `1 / (1 + e^(−s))` the reference
  spells, and both apply the same hyperbolic tangent. No law of arithmetic that could fail at an infinity is used, so
  the precondition (finite inputs) is never opened. The frames of the two kernel programs are the generated ones; the
  reference's frame is its generated run with the result dropped; the idealization rewrote nothing, so what it has to
  preserve is the trivial proposition.
-/
import proofs.«109916_j11596411699631_1_alg».proof.Defs
import proofs.«109916_j11596411699631_1_alg».proof.Proof.Gen.Kernel
import proofs.«109916_j11596411699631_1_alg».proof.Proof.Gen.Kernel.Skeleton
import proofs.«109916_j11596411699631_1_alg».proof.Proof.Gen.Kernel.Launch
import proofs.«109916_j11596411699631_1_alg».proof.Proof.Gen.Kernel.Points
import proofs.«109916_j11596411699631_1_alg».proof.Proof.Gen.Kernel.Frame
import proofs.«109916_j11596411699631_1_alg».proof.Proof.Gen.KernelIdeal
import proofs.«109916_j11596411699631_1_alg».proof.Proof.Gen.KernelIdeal.Skeleton
import proofs.«109916_j11596411699631_1_alg».proof.Proof.Gen.KernelIdeal.Launch
import proofs.«109916_j11596411699631_1_alg».proof.Proof.Gen.KernelIdeal.Points
import proofs.«109916_j11596411699631_1_alg».proof.Proof.Gen.KernelIdeal.Frame
import proofs.«109916_j11596411699631_1_alg».proof.Proof.Gen.ReferenceIdeal
import proofs.«109916_j11596411699631_1_alg».proof.Proof.Gen.ReferenceIdeal.Run
import proofs.«109916_j11596411699631_1_alg».proof.Proof.Gen.ReferenceIdeal.Read
import proofs.«109916_j11596411699631_1_alg».proof.Proof.Gen.Pre_finite_inputs
import proofs.«109916_j11596411699631_1_alg».proof.Proof.GruCell
import proofs.«109916_j11596411699631_1_alg».proof.Proof.ReferenceRows
import proofs.«109916_j11596411699631_1_alg».proof.Proof.KernelRows
import proofs.«109916_j11596411699631_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, the idealized kernel and the idealized reference both end with the
    reshape to three axes of the all-rows function of the flattened input and the parameters: one term. -/
theorem algebraic : Cert.algebraic_KernelIdeal_ReferenceIdeal := by
  intro m ρ m' ρ' _ hagree
  refine ⟨fun c => shapeCast _ (Cert.KernelArray.flatResult m c) Cert.KernelIdeal.Gen.shapeCasts_S2097152x1_S524288x4x1,
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceRows.result_eq, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
